-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S352256x1 : Shape := ⟨2, ![352256, 1]⟩
abbrev S352256x128 : Shape := ⟨2, ![352256, 128]⟩
abbrev S_ : Shape := ⟨0, ![]⟩

class Facts : Prop where
  bcast_S_S4096x11008 : S_.BroadcastsInDim S4096x11008 (![] : Fin 0 → Fin S4096x11008.rank)
  reducesTo_S4096x11008_S_d0_1 : S4096x11008.ReducesTo [0, 1] S_
  h_S_ : 0 < S_.numel
  bcast_S_S352256x1 : S_.BroadcastsInDim S352256x1 (![] : Fin 0 → Fin S352256x1.rank)
  reducesTo_S352256x1_S_d0_1 : S352256x1.ReducesTo [0, 1] S_
  bcast_S_S352256x128 : S_.BroadcastsInDim S352256x128 (![] : Fin 0 → Fin S352256x128.rank)
  reducesTo_S352256x128_S_d0_1 : S352256x128.ReducesTo [0, 1] S_

variable [Facts]

def fn_part1 {F : FTy → Type} [FloatOps F] (main_v13 : IVec S_ 1) (main_v16 : IVec S352256x128 1) : IVec S_ 1 :=
  let main_c_5 : IVec S_ 1 := constantI S_ 1 1#1
  let main_v17 : IVec S_ 1 := (fun x v => Host.reduce IntOp.andi x v reducesTo_S352256x128_S_d0_1 h_S_) main_v16 main_c_5
  let main_v18 : IVec S_ 1 := andi main_v13 main_v17
  main_v18

def fn {F : FTy → Type} [FloatOps F] (main_arg0 : FVec F S4096x11008 .f32) (main_arg1 : FVec F S352256x1 .f32) (main_arg2 : FVec F S352256x1 .f32) (main_arg3 : FVec F S352256x128 .f32) : IVec S_ 1 :=
  let main_v0 : FVec F S4096x11008 .f32 := Host.absf main_arg0
  let main_cst : FVec F S_ .f32 := constant S_ .f32 0x7F800000#32
  let main_v1 : FVec F S4096x11008 .f32 := broadcastInDim S4096x11008 ![] bcast_S_S4096x11008 main_cst
  let main_v2 : IVec S4096x11008 1 := cmpf .olt main_v0 main_v1
  let main_c : IVec S_ 1 := constantI S_ 1 1#1
  let main_v3 : IVec S_ 1 := (fun x v => Host.reduce IntOp.andi x v reducesTo_S4096x11008_S_d0_1 h_S_) main_v2 main_c
  let main_v4 : FVec F S352256x1 .f32 := Host.absf main_arg1
  let main_cst_0 : FVec F S_ .f32 := constant S_ .f32 0x7F800000#32
  let main_v5 : FVec F S352256x1 .f32 := broadcastInDim S352256x1 ![] bcast_S_S352256x1 main_cst_0
  let main_v6 : IVec S352256x1 1 := cmpf .olt main_v4 main_v5
  let main_c_1 : IVec S_ 1 := constantI S_ 1 1#1
  let main_v7 : IVec S_ 1 := (fun x v => Host.reduce IntOp.andi x v reducesTo_S352256x1_S_d0_1 h_S_) main_v6 main_c_1
  let main_v8 : IVec S_ 1 := andi main_v3 main_v7
  let main_v9 : FVec F S352256x1 .f32 := Host.absf main_arg2
  let main_cst_2 : FVec F S_ .f32 := constant S_ .f32 0x7F800000#32
  let main_v10 : FVec F S352256x1 .f32 := broadcastInDim S352256x1 ![] bcast_S_S352256x1 main_cst_2
  let main_v11 : IVec S352256x1 1 := cmpf .olt main_v9 main_v10
  let main_c_3 : IVec S_ 1 := constantI S_ 1 1#1
  let main_v12 : IVec S_ 1 := (fun x v => Host.reduce IntOp.andi x v reducesTo_S352256x1_S_d0_1 h_S_) main_v11 main_c_3
  let main_v13 : IVec S_ 1 := andi main_v8 main_v12
  let main_v14 : FVec F S352256x128 .f32 := Host.absf main_arg3
  let main_cst_4 : FVec F S_ .f32 := constant S_ .f32 0x7F800000#32
  let main_v15 : FVec F S352256x128 .f32 := broadcastInDim S352256x128 ![] bcast_S_S352256x128 main_cst_4
  let main_v16 : IVec S352256x128 1 := cmpf .olt main_v14 main_v15
  fn_part1 (F := F) main_v13 main_v16
-- ==== Kernel.lean ====
abbrev S4096x11008 : Shape := ⟨2, ![4096, 11008]⟩
abbrev S352256x1 : Shape := ⟨2, ![352256, 1]⟩
abbrev S352256x128 : Shape := ⟨2, ![352256, 128]⟩
abbrev S4096x128 : Shape := ⟨2, ![4096, 128]⟩
abbrev S4096x1 : Shape := ⟨2, ![4096, 1]⟩
abbrev S4096 : Shape := ⟨1, ![4096]⟩

abbrev nBuf : Space → Nat
  | .hbm => 7
  | .vmem => 10
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S352256x128, .f32⟩
  | .hbm, ⟨4, _⟩ => ⟨S352256x128, .f32⟩
  | .hbm, ⟨5, _⟩ => ⟨S352256x128, .f32⟩
  | .hbm, ⟨6, _⟩ => ⟨S4096x11008, .f32⟩
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | .local _ .vmem, ⟨4, _⟩ => ⟨S4096x1, .f32⟩
  | .local _ .vmem, ⟨5, _⟩ => ⟨S4096x1, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x11008_S352256x128 : S4096x11008.ShapeCasts S352256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  reduces_S4096x128_S4096 : S4096x128.Reduces [1] S4096
  shapeCasts_S4096_S4096x1 : S4096.ShapeCasts S4096x1
  broadcasts_S4096x1_S4096x128 : S4096x1.Broadcasts S4096x128
  shapeCasts_S352256x128_S4096x11008 : S352256x128.ShapeCasts S4096x11008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S352256x128.size a
  hwx0_0 : ∀ i : grid0.Coords, EltTy.bits .f32 = 32 ∨ (Rect.block (s := S352256x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S352256x1.size a
  hwx0_1 : ∀ i : grid0.Coords, EltTy.bits .f32 = 32 ∨ (Rect.block (s := S352256x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S352256x1.size a
  hwx0_2 : ∀ i : grid0.Coords, EltTy.bits .f32 = 32 ∨ (Rect.block (s := S352256x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S352256x128.size a
  hwx0_3 : ∀ i : grid0.Coords, EltTy.bits .f32 = 32 ∨ (Rect.block (s := S352256x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S352256x128.size a
  hwx0_4 : ∀ i : grid0.Coords, EltTy.bits .f32 = 32 ∨ (Rect.block (s := S352256x128) S4096x128.size (cc0_transform_4 i) (hinb0_4 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S352256x1 : Shape := ⟨2, ![352256, 1]⟩
abbrev S352256x128 : Shape := ⟨2, ![352256, 128]⟩
abbrev S_ : Shape := ⟨0, ![]⟩
abbrev S352256 : Shape := ⟨1, ![352256]⟩

abbrev nBuf : Space → Nat
  | .hbm => 52
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S352256x128, .f32⟩
  | .hbm, ⟨4, _⟩ => ⟨S352256x128, .f32⟩
  | .hbm, ⟨5, _⟩ => ⟨S_, .f32⟩
  | .hbm, ⟨6, _⟩ => ⟨S352256, .f32⟩
  | .hbm, ⟨7, _⟩ => ⟨S352256x1, .f32⟩
  | .hbm, ⟨8, _⟩ => ⟨S_, .f32⟩
  | .hbm, ⟨9, _⟩ => ⟨S352256x1, .f32⟩
  | .hbm, ⟨10, _⟩ => ⟨S352256x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S352256x1, .f32⟩
  | .hbm, ⟨15, _⟩ => ⟨S352256x1, .f32⟩
  | .hbm, ⟨16, _⟩ => ⟨S_, .f32⟩
  | .hbm, ⟨17, _⟩ => ⟨S352256x1, .f32⟩
  | .hbm, ⟨18, _⟩ => ⟨S352256x1, .f32⟩
  | .hbm, ⟨19, _⟩ => ⟨S352256x1, .f32⟩
  | .hbm, ⟨20, _⟩ => ⟨S352256x1, .f32⟩
  | .hbm, ⟨21, _⟩ => ⟨S352256x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S352256x1, .f32⟩
  | .hbm, ⟨26, _⟩ => ⟨S352256x1, .f32⟩
  | .hbm, ⟨27, _⟩ => ⟨S_, .f32⟩
  | .hbm, ⟨28, _⟩ => ⟨S352256x1, .f32⟩
  | .hbm, ⟨29, _⟩ => ⟨S352256x1, .f32⟩
  | .hbm, ⟨30, _⟩ => ⟨S352256x1, .f32⟩
  | .hbm, ⟨31, _⟩ => ⟨S352256x128, .f32⟩
  | .hbm, ⟨32, _⟩ => ⟨S352256x128, .f32⟩
  | .hbm, ⟨33, _⟩ => ⟨S352256x128, .f32⟩
  | .hbm, ⟨34, _⟩ => ⟨S352256x128, .f32⟩
  | .hbm, ⟨35, _⟩ => ⟨S352256x128, .f32⟩
  | .hbm, ⟨36, _⟩ => ⟨S352256x128, .f32⟩
  | .hbm, ⟨37, _⟩ => ⟨S352256x128, .f32⟩
  | .hbm, ⟨38, _⟩ => ⟨S352256x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S352256x128, .f32⟩
  | .hbm, ⟨43, _⟩ => ⟨S352256x128, .f32⟩
  | .hbm, ⟨44, _⟩ => ⟨S_, .f32⟩
  | .hbm, ⟨45, _⟩ => ⟨S352256x128, .f32⟩
  | .hbm, ⟨46, _⟩ => ⟨S352256x128, .f32⟩
  | .hbm, ⟨47, _⟩ => ⟨S352256x128, .f32⟩
  | .hbm, ⟨48, _⟩ => ⟨S352256x128, .f32⟩
  | .hbm, ⟨49, _⟩ => ⟨S352256x128, .f32⟩
  | .hbm, ⟨50, _⟩ => ⟨S352256x128, .f32⟩
  | .hbm, ⟨51, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_cst_6 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩

abbrev nD : Nat := 1
abbrev τ : Topo := Topo.v7x

variable {F : FTy → Type} [FloatOps F]

class Facts₀ : Prop where
  shapeCasts_S4096x11008_S352256x128 : S4096x11008.ShapeCasts S352256x128
  reducesTo_S352256x128_S352256_d1 : S352256x128.ReducesTo [1] S352256
  h_S_ : 0 < S_.numel
  bcast_S352256_S352256x1_0 : S352256.BroadcastsInDim S352256x1 (![0] : Fin 1 → Fin S352256x1.rank)
  bcast_S_S352256x1 : S_.BroadcastsInDim S352256x1 (![] : Fin 0 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S4096x11008 : S352256x128.ShapeCasts S4096x11008

variable [Facts₀]

class Facts : Prop extends Facts₀ where

variable [Facts]
-- ==== Proof.Consts.lean ====
/-
  The float constants the two programs spell, as the extended reals their words denote: 255, the two clipping bounds
  of the scale (a small positive real and 10000), the bound -10000 of the zero point, and 1. Only what the algebra
  needs is evaluated: that each is a real number, that the lower bound of the scale is positive, and that the word
  of 1.0 is 1.
-/
import Idealize.ShloMosaic.PureOps.Ideal

noncomputable section

namespace Cert.Consts

open Idealize.ShloMosaic

/-- The word of `255.0` denotes the real 255. -/
theorem ofBits_255 : Ideal.ofBits .f32 0x437F0000#32 = ((255 : ℝ) : EReal) := by
  simp [Ideal.ofBits, Ideal.ieee, -EReal.coe_mul]; norm_num

/-- The word of `10000.0` denotes the real 10000. -/
theorem ofBits_hi : Ideal.ofBits .f32 0x461C4000#32 = ((10000 : ℝ) : EReal) := by
  simp [Ideal.ofBits, Ideal.ieee, -EReal.coe_mul]; norm_num

/-- The word of `-10000.0` denotes the real -10000. -/
theorem ofBits_neg_hi : Ideal.ofBits .f32 0xC61C4000#32 = ((-10000 : ℝ) : EReal) := by
  simp [Ideal.ofBits, Ideal.ieee, -EReal.coe_mul]; norm_num

/-- The word nearest `1e-5` denotes a positive real (its exact dyadic value is never needed). -/
theorem ofBits_lo : ∃ r : ℝ, 0 < r ∧ Ideal.ofBits .f32 0x3727C5AC#32 = (r : EReal) := by
  refine ⟨_, ?_, by simp [Ideal.ofBits, Ideal.ieee, -EReal.coe_mul]; rfl⟩
  positivity

/-- The word of `1.0` denotes 1. -/
theorem ofBits_one : Ideal.ofBits .f32 0x3F800000#32 = 1 := by
  simp [Ideal.ofBits, Ideal.ieee, -EReal.coe_mul]; norm_num

/-- The word of `+0.0` denotes 0. -/
theorem ofBits_zero : Ideal.ofBits .f32 0x00000000#32 = 0 := by
  simp [Ideal.ofBits, Ideal.ieee]

end Cert.Consts

end
-- ==== Proof.QuantLaw.lean ====
/-
  The fake-quantization formula on one element, in the two arrangements the two programs compute, and the law that
  joins them. With s the clipped scale of the row, m the row's minimum, c = round(clip(-(m + shift) / s)) the rounded
  zero point and w = (x + perturb) / s:

    * one program multiplies by the reciprocal 1/s, and clips round(w) between the shifted bounds 0 - c and 255 - c;
    * the other divides by s, rebuilds round(w) as w + (round(w) - w), adds c, clips between 0 and 255, subtracts c.

  Both then multiply by s. The scale is always a positive real (it is clipped between two positive reals), so
  dividing by it is multiplying by its reciprocal at every extended real; the zero point is always a real (it is
  clipped, then rounded). For a finite element and a finite perturbation w is a real, so w + (round(w) - w) = round(w),
  and on the reals clip(n + c, 0, 255) - c = clip(n, 0 - c, 255 - c).
-/
import Idealize.ShloMosaic.PureOps.Ideal
import proofs.«172777_j15796889714962_2_alg».proof.Proof.Consts

noncomputable section

namespace Cert.Quant

open Idealize.ShloMosaic

/-- Rounding to the nearest integer, ties to even, on the extended reals (the infinities fixed). -/
abbrev rne : EReal → EReal := Ideal.liftRound Ideal.roundHalfEven

/-- The row's scale: alpha / 255 clipped between the two bounds. -/
def scale (a : EReal) : EReal :=
  min (Ideal.ofBits .f32 0x461C4000#32) (max (Ideal.ofBits .f32 0x3727C5AC#32) (Ideal.div a (Ideal.ofBits .f32 0x437F0000#32)))

/-- The rounded zero point, by the reciprocal of the scale: round(clip((0 - (m + shift)) * (1/s))). -/
def zeroPointMul (mn sh s : EReal) : EReal :=
  rne (min (Ideal.ofBits .f32 0x461C4000#32) (max (Ideal.ofBits .f32 0xC61C4000#32)
    ((Ideal.ofBits .f32 0x00000000#32 - (mn + sh)) * Ideal.div (Ideal.ofBits .f32 0x3F800000#32) s)))

/-- The rounded zero point, by division: round(clip(-(m + shift) / s)). -/
def zeroPointDiv (mn sh s : EReal) : EReal :=
  rne (min (Ideal.ofBits .f32 0x461C4000#32) (max (Ideal.ofBits .f32 0xC61C4000#32) (Ideal.div (-(mn + sh)) s)))

/-- One element of the result, reciprocal arrangement: clip(round((x + p) * (1/s)), 0 - c, 255 - c) * s. -/
def outMul (x p a sh mn : EReal) : EReal :=
  min (Ideal.ofBits .f32 0x437F0000#32 - zeroPointMul mn sh (scale a))
    (max (Ideal.ofBits .f32 0x00000000#32 - zeroPointMul mn sh (scale a))
      (rne ((x + p) * Ideal.div (Ideal.ofBits .f32 0x3F800000#32) (scale a)))) * scale a

/-- One element of the result, division arrangement: (clip(w + (round(w) - w) + c, 0, 255) - c) * s, w = (x + p) / s. -/
def outDiv (x p a sh mn : EReal) : EReal :=
  (min (Ideal.ofBits .f32 0x437F0000#32)
    (max (Ideal.ofBits .f32 0x00000000#32)
      ((Ideal.div (x + p) (scale a) + (rne (Ideal.div (x + p) (scale a)) - Ideal.div (x + p) (scale a)))
        + zeroPointDiv mn sh (scale a))) - zeroPointDiv mn sh (scale a)) * scale a

/-- The inclusion of the reals in the extended reals preserves minima … -/
theorem coe_min (x y : ℝ) : ((min x y : ℝ) : EReal) = min (x : EReal) (y : EReal) :=
  EReal.coe_strictMono.monotone.map_min

/-- … and maxima. -/
theorem coe_max (x y : ℝ) : ((max x y : ℝ) : EReal) = max (x : EReal) (y : EReal) :=
  EReal.coe_strictMono.monotone.map_max

/-- A value clipped between two reals is a real. -/
theorem clip_is_real (lo hi : ℝ) (y : EReal) : ∃ r : ℝ, min (hi : EReal) (max (lo : EReal) y) = (r : EReal) := by
  induction y using EReal.rec with
  | bot => exact ⟨min hi lo, by rw [max_eq_left bot_le, coe_min]⟩
  | top => exact ⟨hi, by rw [max_eq_right le_top, min_eq_left le_top]⟩
  | coe r => exact ⟨min hi (max lo r), by rw [coe_min, coe_max]⟩

/-- The scale is a positive real, whatever alpha is. -/
theorem scale_pos (a : EReal) : ∃ s : ℝ, 0 < s ∧ scale a = (s : EReal) := by
  obtain ⟨lo, hlo, elo⟩ := Cert.Consts.ofBits_lo
  unfold scale
  rw [Cert.Consts.ofBits_hi, elo]
  generalize Ideal.div a (Ideal.ofBits .f32 0x437F0000#32) = y
  induction y using EReal.rec with
  | bot => exact ⟨min 10000 lo, lt_min (by norm_num) hlo, by rw [max_eq_left bot_le, coe_min]⟩
  | top => exact ⟨10000, by norm_num, by rw [max_eq_right le_top, min_eq_left le_top]⟩
  | coe r => exact ⟨min 10000 (max lo r), lt_min (by norm_num) (lt_max_of_lt_left hlo), by rw [coe_min, coe_max]⟩

/-- Dividing by a positive real is multiplying by the reciprocal the other program computes as `1.0 / s`. -/
theorem div_eq_mul_recip {s : ℝ} (hs : 0 < s) (y : EReal) :
    Ideal.div y (s : EReal) = y * Ideal.div (Ideal.ofBits .f32 0x3F800000#32) (s : EReal) := by
  rw [Cert.Consts.ofBits_one, Ideal.div_coe hs.ne', Ideal.div_coe hs.ne', one_mul]

/-- The two zero points are one value, a real. -/
theorem zeroPoint_eq (mn sh : EReal) {s : ℝ} (hs : 0 < s) :
    zeroPointMul mn sh (s : EReal) = zeroPointDiv mn sh (s : EReal) := by
  unfold zeroPointMul zeroPointDiv
  rw [div_eq_mul_recip hs (-(mn + sh)), Cert.Consts.ofBits_zero, sub_eq_add_neg, zero_add]

/-- The rounded zero point is a real. -/
theorem zeroPointDiv_real (mn sh s : EReal) : ∃ c : ℝ, zeroPointDiv mn sh s = (c : EReal) := by
  unfold zeroPointDiv
  rw [Cert.Consts.ofBits_hi, Cert.Consts.ofBits_neg_hi]
  obtain ⟨r, hr⟩ := clip_is_real (-10000) 10000 (Ideal.div (-(mn + sh)) s)
  exact ⟨_, by rw [hr]; rfl⟩

/-- THE LAW: for a finite element and a finite perturbation the two arrangements give one value. -/
theorem outMul_eq_outDiv {x p : ℝ} (a sh mn : EReal) :
    outMul (x : EReal) (p : EReal) a sh mn = outDiv (x : EReal) (p : EReal) a sh mn := by
  obtain ⟨s, hs, es⟩ := scale_pos a
  unfold outMul outDiv
  rw [es, zeroPoint_eq mn sh hs, ← div_eq_mul_recip hs]
  obtain ⟨c, ec⟩ := zeroPointDiv_real mn sh (s : EReal)
  rw [ec, Ideal.div_coe hs.ne', Cert.Consts.ofBits_255, Cert.Consts.ofBits_zero]
  have hw : ((x : EReal) + (p : EReal)) * ((1 / s : ℝ) : EReal) = (((x + p) * (1 / s) : ℝ) : EReal) := by
    rw [← EReal.coe_add, ← EReal.coe_mul]
  rw [hw]
  generalize (x + p) * (1 / s) = w
  have hn : rne (w : EReal) = (((Ideal.roundHalfEven w : ℤ) : ℝ) : EReal) := rfl
  rw [hn]
  generalize ((Ideal.roundHalfEven w : ℤ) : ℝ) = n
  have hR : min (255 - c) (max (0 - c) n) = min 255 (max 0 (w + (n - w) + c)) - c := by
    have e : w + (n - w) = n := by ring
    rw [e, ← min_sub_sub_right, ← max_sub_sub_right, add_sub_cancel_right]
  have hE := congrArg Real.toEReal hR
  simp only [coe_min, coe_max, EReal.coe_sub, EReal.coe_add, EReal.coe_zero] at hE
  rw [hE]

end Cert.Quant

end
-- ==== Proof.LibMinLayout.lean ====
/-
  A minimum along axis 1 of an `[a, n]` array of extended reals, read at a row: the fold of `min`, from the starting
  value, over the row's entries `(p, k)`, `k` running over the columns — for the vector unit's
  `multi_reduction <minimumf>` and for the host's `reduce` with a minimum body. General in the extents; the row is
  named by its coordinate so that the statements apply by unification.
-/
import Idealize.ShloMosaic.PureOps.Ideal.Laws
import Idealize.ShloMosaic.Lib.ValueIdx

noncomputable section

namespace Cert.Lib.MinLayout

open Idealize.ShloMosaic Idealize.ShloMosaic.ValueIdx

/-- Over row `p` of the result, the source index with column `k` inserted on the reduced axis is `(p, k)`. -/
theorem lift_row {a n : ℕ} (h : (⟨2, ![a, n]⟩ : Shape).Reduces [1] ⟨1, ![a]⟩) (p : Fin a) (k : Fin n) :
    h.lift (ix1 p) k = ix2 p k := by
  funext c
  apply Fin.ext
  match c with
  | ⟨0, _⟩ => rfl
  | ⟨1, _⟩ => rfl

/-- The vector unit's row minimum at row `p`: the fold of `min` from the accumulator's value over the row's entries. -/
theorem multiReduction_min_row {φ : FTy} {a n : ℕ} (src : FVec Ideal ⟨2, ![a, n]⟩ φ) (acc : BitVec φ.bits)
    (h : (⟨2, ![a, n]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin n)).fold min (Ideal.ofBits φ acc) (fun k => src (ix2 p k)) := by
  rw [multiReduction_minimumf_eq_fold]
  refine (h.fold_filter_drop_single _ _ src (ix1 p)).trans ?_
  have e : src ∘ h.lift (ix1 p) = fun k : Fin n => src (ix2 p k) := funext fun k => congrArg src (lift_row h p k)
  show (Finset.univ : Finset (Fin n)).fold min (Ideal.ofBits φ acc) (src ∘ h.lift (ix1 p)) = _
  rw [e]
  rfl

/-- The host's row minimum at row `p`: the fold of `min` from the initial value over the row's entries. -/
theorem hostReduce_min_row {φ : FTy} {a n : ℕ} {u : Shape} (x : (⟨2, ![a, n]⟩ : Shape).Idx → Ideal φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.minimumf (F := Ideal) (φ := φ)) x init h' hu (ix1 p)
      = (Finset.univ : Finset (Fin n)).fold min (init (Shape.Idx.first hu)) (fun k => x (ix2 p k)) := by
  refine (Host.reduce_eq_fold_single _ x init h' h hu (ix1 p)).trans ?_
  have e : x ∘ h.lift (ix1 p) = fun k : Fin n => x (ix2 p k) := funext fun k => congrArg x (lift_row h p k)
  show (Finset.univ : Finset (Fin n)).fold min (init (Shape.Idx.first hu)) (x ∘ h.lift (ix1 p)) = _
  rw [e]
  rfl

end Cert.Lib.MinLayout

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.KernelPoint.lean ====
/-
  One element of what the kernel body stores. The body computes, per row of its [4096, 128] block: the row's minimum, the
  row's scale (alpha / 255 clipped), the scale's reciprocal, and the rounded zero point; then, per element, the clipped
  rounding of (x + perturbation) * reciprocal between the row's shifted bounds, times the scale. Here the per-row
  quantities are named as [4096, 1] columns, the body's arithmetic is restated over them, each column is read at a row,
  and the element at (p, q) comes out as the reciprocal arrangement of the formula applied to the block's entry (p, q),
  the perturbation's entry (p, q), alpha's and shift's entries of row p and the minimum of the block's row p.
-/
import proofs.«172777_j15796889714962_2_alg».proof.Proof.Gen.KernelIdeal.Skeleton
import proofs.«172777_j15796889714962_2_alg».proof.Proof.QuantLaw
import proofs.«172777_j15796889714962_2_alg».proof.Proof.LibMinLayout
import proofs.«172777_j15796889714962_2_alg».proof.Proof.LibColumnLayout
import Idealize.ShloMosaic.Lib.Pipeline.Value

noncomputable section
namespace Cert.KernelIdeal.Point
open Idealize.ShloMosaic Idealize.ShloMosaic.ValueIdx Cert.KernelIdeal Cert.KernelIdeal.Gen Cert.Lib.ColumnLayout Cert.Lib.MinLayout

/-- The rows' minima of a block, as a column. -/
def minCol (x0 : Vec Ideal S4096x128 .f32) : FVec Ideal S4096x1 .f32 :=
  shapeCast S4096x1 (multiReduction .minimumf [1] S4096 (shapeCast S4096x128 x0 shapeCasts_S4096x128_S4096x128) 0x7F800000#32
    reduces_S4096x128_S4096 (.inl rfl) rfl) shapeCasts_S4096_S4096x1

/-- The rows' scales, as a column. -/
def scaleCol (al : Vec Ideal S4096x1 .f32) : FVec Ideal S4096x1 .f32 :=
  minimumf (broadcast S4096x1 (Scalar.ofBits .f32 0x461C4000#32))
    (maximumf (broadcast S4096x1 (Scalar.ofBits .f32 0x3727C5AC#32)) (divf al (broadcast S4096x1 (Scalar.ofBits .f32 0x437F0000#32))))

/-- The rows' reciprocal scales, as a column. -/
def recipCol (al : Vec Ideal S4096x1 .f32) : FVec Ideal S4096x1 .f32 :=
  divf (broadcast S4096x1 (Scalar.ofBits .f32 0x3F800000#32)) (scaleCol al)

/-- The rows' rounded zero points, as a column. -/
def zeroCol (x0 : Vec Ideal S4096x128 .f32) (al sf : Vec Ideal S4096x1 .f32) : FVec Ideal S4096x1 .f32 :=
  roundeven (minimumf (broadcast S4096x1 (Scalar.ofBits .f32 0x461C4000#32))
    (maximumf (broadcast S4096x1 (Scalar.ofBits .f32 0xC61C4000#32))
      (mulf (subf (broadcast S4096x1 (Scalar.ofBits .f32 0x00000000#32)) (addf (minCol x0) sf)) (recipCol al))))

/-- The body's arithmetic over these columns. -/
theorem pay_eq (x0 pb : Vec Ideal S4096x128 .f32) (al sf : Vec Ideal S4096x1 .f32) :
    k0_pay1 (F := Ideal) x0 pb al sf
      = mulf (minimumf (broadcastTo S4096x128 (subf (broadcast S4096x1 (Scalar.ofBits .f32 0x437F0000#32)) (zeroCol x0 al sf)) broadcasts_S4096x1_S4096x128)
          (maximumf (broadcastTo S4096x128 (subf (broadcast S4096x1 (Scalar.ofBits .f32 0x00000000#32)) (zeroCol x0 al sf)) broadcasts_S4096x1_S4096x128)
            (roundeven (mulf (addf (shapeCast S4096x128 x0 shapeCasts_S4096x128_S4096x128) pb)
              (broadcastTo S4096x128 (recipCol al) broadcasts_S4096x1_S4096x128)))))
          (broadcastTo S4096x128 (scaleCol al) broadcasts_S4096x1_S4096x128) := rfl

/-- Rounding, read at an index. -/
theorem roundeven_apply {s : Shape} (v : FVec Ideal s .f32) (i : s.Idx) : roundeven v i = Cert.Quant.rne (v i) := rfl

/-- Row p of the minima column: the fold of min over the row's entries. -/
theorem minCol_apply (x0 : Vec Ideal S4096x128 .f32) (p : Fin 4096) :
    minCol x0 (ix2 p 0) = (Finset.univ : Finset (Fin 128)).fold min (Ideal.ofBits .f32 0x7F800000#32) fun k => x0 (ix2 p k) := by
  unfold minCol
  refine (shapeCast_a_a1_apply _ shapeCasts_S4096_S4096x1 p 0).trans ?_
  rw [shapeCast_self]
  exact multiReduction_min_row (φ := .f32) (a := 4096) (n := 128) x0 0x7F800000#32 reduces_S4096x128_S4096 _ _ p

/-- Row p of the scale column. -/
theorem scaleCol_apply (al : Vec Ideal S4096x1 .f32) (p : Fin 4096) :
    scaleCol al (ix2 p 0) = Cert.Quant.scale (al (ix2 p 0)) := rfl

/-- Row p of the reciprocal column. -/
theorem recipCol_apply (al : Vec Ideal S4096x1 .f32) (p : Fin 4096) :
    recipCol al (ix2 p 0) = Ideal.div (Ideal.ofBits .f32 0x3F800000#32) (Cert.Quant.scale (al (ix2 p 0))) := rfl

/-- Row p of the zero-point column. -/
theorem zeroCol_apply (x0 : Vec Ideal S4096x128 .f32) (al sf : Vec Ideal S4096x1 .f32) (p : Fin 4096) :
    zeroCol x0 al sf (ix2 p 0)
      = Cert.Quant.zeroPointMul ((Finset.univ : Finset (Fin 128)).fold min (Ideal.ofBits .f32 0x7F800000#32) fun k => x0 (ix2 p k))
          (sf (ix2 p 0)) (Cert.Quant.scale (al (ix2 p 0))) := by
  unfold zeroCol
  rw [roundeven_apply, minimumf_apply, maximumf_apply, mulf_apply, subf_apply, addf_apply, minCol_apply, recipCol_apply]
  rfl

/-- ONE ELEMENT of what the body stores: the reciprocal arrangement of the formula, of the element, its perturbation, the
    row's alpha and shift, and the row's minimum. -/
theorem pay_apply (x0 pb : Vec Ideal S4096x128 .f32) (al sf : Vec Ideal S4096x1 .f32) (p : Fin 4096) (q : Fin 128) :
    k0_pay1 (F := Ideal) x0 pb al sf (ix2 p q)
      = Cert.Quant.outMul (x0 (ix2 p q)) (pb (ix2 p q)) (al (ix2 p 0)) (sf (ix2 p 0))
          ((Finset.univ : Finset (Fin 128)).fold min (Ideal.ofBits .f32 0x7F800000#32) fun k => x0 (ix2 p k)) := by
  rw [pay_eq]
  simp only [mulf_apply, minimumf_apply, maximumf_apply, roundeven_apply, addf_apply, subf_apply, broadcast_apply,
    broadcastTo_a1_ab_apply, shapeCast_self, zeroCol_apply, scaleCol_apply, recipCol_apply]
  rfl

end Cert.KernelIdeal.Point
end
-- ==== Proof.KernelArray.lean ====
/-
  The kernel's result array as ONE function of the argument arrays. The grid has 86 points; point t stages rows
  4096 t … 4096 t + 4095 of the reshaped input, of the perturbation, of alpha and of shift, and writes back the same
  rows of the output. Every stored element depends only on its own row, so what point t writes back is block t of the
  whole-array function `G`: at (r, q), the reciprocal arrangement of the formula applied to the entries (r, q), to
  alpha's and shift's row r, and to the minimum of row r. The 86 blocks tile the output, so after the region the output
  array is `G` of the arrays the region found; the array the first window reads is the input reshaped to rows of 128
  (the one host operation before the region), and the program's result is the output reshaped back (the one after it).
-/
import proofs.«172777_j15796889714962_2_alg».proof.Proof.Gen.KernelIdeal.Frame
import proofs.«172777_j15796889714962_2_alg».proof.Proof.KernelPoint
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The zero offsets of a block's one store and loads. -/
theorem hz : (![0, 0] : Fin 2 → Nat) = fun _ => 0 := funext fun a => by fin_cases a <;> rfl

/-- THE WHOLE-ARRAY FUNCTION: the output's entry (r, q) from the reshaped input X, the perturbation, alpha and shift. -/
def G (X Pt : S352256x128.Idx → EReal) (A SH : S352256x1.Idx → EReal) : S352256x128.Idx → EReal :=
  fun i => Cert.Quant.outMul (X i) (Pt i) (A (ix2 (i 0) 0)) (SH (ix2 (i 0) 0))
    ((Finset.univ : Finset (Fin 128)).fold min (Ideal.ofBits .f32 0x7F800000#32) fun k => X (ix2 (i 0) k))

/-- `G` at an index given by its coordinates. -/
theorem G_apply (X Pt : S352256x128.Idx → EReal) (A SH : S352256x1.Idx → EReal) (r : Fin 352256) (q : Fin 128) :
    G X Pt A SH (ix2 r q) = Cert.Quant.outMul (X (ix2 r q)) (Pt (ix2 r q)) (A (ix2 r 0)) (SH (ix2 r 0))
      ((Finset.univ : Finset (Fin 128)).fold min (Ideal.ofBits .f32 0x7F800000#32) fun k => X (ix2 r k)) := rfl

/-- The printed index maps, decided over the 86 points: every window's block index at point t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of block t is row 4096 t + p of the array. -/
def rowOf (t : Fin cfg0.N) (p : Fin 4096) : Fin 352256 :=
  ⟨t.val * 4096 + p.val, by have h86 : cfg0.N = 86 := N_0; have ht := t.isLt; have hp := p.isLt; omega⟩

/-- Each input window's block at point t, read at a block index, is its array read at the same row of block t. -/
theorem blk0_apply (c : Dev nD) (t : Fin cfg0.N) (p : Fin 4096) (q : Fin 128) :
    (iblk m c 0 t : Vec Ideal S4096x128 .f32) (ix2 p q) = (V m c main_v0 : S352256x128.Idx → Elt Ideal .f32) (ix2 (rowOf t p) q) := by
  obtain ⟨e0, e1, -⟩ := idx_facts t
  unfold iblk
  rw [View.read_apply]
  show (V m c main_v0 : S352256x128.Idx → Elt Ideal .f32) _ = _
  refine congrArg (V m c main_v0 : S352256x128.Idx → Elt Ideal .f32) ?_
  funext a
  apply Fin.ext
  match a with
  | ⟨0, _⟩ => show win0_0.index t 0 * 4096 + 1 * p.val = t.val * 4096 + p.val; rw [e0]; omega
  | ⟨1, _⟩ => show win0_0.index t 1 * 128 + 1 * q.val = q.val; rw [e1]; omega

theorem blk3_apply (c : Dev nD) (t : Fin cfg0.N) (p : Fin 4096) (q : Fin 128) :
    (iblk m c 3 t : Vec Ideal S4096x128 .f32) (ix2 p q) = (V m c main_arg3 : S352256x128.Idx → Elt Ideal .f32) (ix2 (rowOf t p) q) := by
  obtain ⟨-, -, -, -, -, -, e0, e1, -⟩ := idx_facts t
  unfold iblk
  rw [View.read_apply]
  show (V m c main_arg3 : S352256x128.Idx → Elt Ideal .f32) _ = _
  refine congrArg (V m c main_arg3 : S352256x128.Idx → Elt Ideal .f32) ?_
  funext a
  apply Fin.ext
  match a with
  | ⟨0, _⟩ => show win0_3.index t 0 * 4096 + 1 * p.val = t.val * 4096 + p.val; rw [e0]; omega
  | ⟨1, _⟩ => show win0_3.index t 1 * 128 + 1 * q.val = q.val; rw [e1]; omega

theorem blk1_apply (c : Dev nD) (t : Fin cfg0.N) (p : Fin 4096) :
    (iblk m c 1 t : Vec Ideal S4096x1 .f32) (ix2 p 0) = (V m c main_arg1 : S352256x1.Idx → Elt Ideal .f32) (ix2 (rowOf t p) 0) := by
  obtain ⟨-, -, e0, e1, -⟩ := idx_facts t
  unfold iblk
  rw [View.read_apply]
  show (V m c main_arg1 : S352256x1.Idx → Elt Ideal .f32) _ = _
  refine congrArg (V m c main_arg1 : S352256x1.Idx → Elt Ideal .f32) ?_
  funext a
  apply Fin.ext
  match a with
  | ⟨0, _⟩ => show win0_1.index t 0 * 4096 + 1 * p.val = t.val * 4096 + p.val; rw [e0]; omega
  | ⟨1, _⟩ => show win0_1.index t 1 * 1 + 1 * 0 = 0; rw [e1]

theorem blk2_apply (c : Dev nD) (t : Fin cfg0.N) (p : Fin 4096) :
    (iblk m c 2 t : Vec Ideal S4096x1 .f32) (ix2 p 0) = (V m c main_arg2 : S352256x1.Idx → Elt Ideal .f32) (ix2 (rowOf t p) 0) := by
  obtain ⟨-, -, -, -, e0, e1, -⟩ := idx_facts t
  unfold iblk
  rw [View.read_apply]
  show (V m c main_arg2 : S352256x1.Idx → Elt Ideal .f32) _ = _
  refine congrArg (V m c main_arg2 : S352256x1.Idx → Elt Ideal .f32) ?_
  funext a
  apply Fin.ext
  match a with
  | ⟨0, _⟩ => show win0_2.index t 0 * 4096 + 1 * p.val = t.val * 4096 + p.val; rw [e0]; omega
  | ⟨1, _⟩ => show win0_2.index t 1 * 1 + 1 * 0 = 0; rw [e1]

/-- WHAT POINT t WRITES BACK is block t of the whole-array function. -/
theorem flushed_eq (c : Dev nD) (t : Fin cfg0.N) :
    (dats m 0 c).flushed 4 t = ((cfg0.win 4).blk t).view.read (Elt Ideal)
      (G (V m c main_v0) (V m c main_arg3) (V m c main_arg1) (V m c main_arg2)) := by
  show (cfg0.win 4).cut (grid0.coords t) ((dats m 0 c).after 4 t) = _
  rw [after0_4]
  unfold out0_4
  rw [View.canon_unit_zero hz]
  simp only [View.ld_unit_zero (S := S4096x128) hz, View.ld_unit_zero (S := S4096x1) hz]
  obtain ⟨-, -, -, -, -, -, -, -, e0, e1⟩ := idx_facts t
  funext j
  obtain ⟨p, q, rfl⟩ : ∃ (p : Fin 4096) (q : Fin 128), j = ix2 p q := ⟨j 0, j 1, eq_ix2 j⟩
  have hemb : ((cfg0.win 4).blk t).view.emb (ix2 p q) = (ix2 (rowOf t p) q : S352256x128.Idx) := by
    funext a
    apply Fin.ext
    match a with
    | ⟨0, _⟩ => show win0_4.index t 0 * 4096 + 1 * p.val = t.val * 4096 + p.val; rw [e0]; omega
    | ⟨1, _⟩ => show win0_4.index t 1 * 128 + 1 * q.val = q.val; rw [e1]; omega
  rw [View.read_apply, hemb]
  refine (Cert.KernelIdeal.Point.pay_apply _ _ _ _ p q).trans ?_
  unfold G
  simp only [blk0_apply, blk1_apply, blk2_apply, blk3_apply]
  rfl

/-- An index of the array is in point t's block iff each coordinate is in the block's range on its axis. -/
theorem mem_blk (t : Fin cfg0.N) (i : S352256x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v1).slice (win0_4.rect t)).set ↔ _
  rw [View.set_slice_whole, Rect.mem_set_unit]
  exact Iff.rfl

/-- Every index of the array is in the block of the point its row falls in: row r belongs to point r / 4096. -/
theorem cover (i : S352256x128.Idx) : ∃ t : Fin cfg0.N, (cfg0.win 4).flush t = true ∧ i ∈ ((cfg0.win 4).blk t).view.set := by
  have hi0 : (i 0).val < 352256 := (i 0).isLt
  have hi1 : (i 1).val < 128 := (i 1).isLt
  have h86 : cfg0.N = 86 := N_0
  obtain ⟨t, ht⟩ : ∃ t : Fin cfg0.N, t.val = (i 0).val / 4096 := ⟨⟨(i 0).val / 4096, by omega⟩, rfl⟩
  obtain ⟨-, -, -, -, -, -, -, -, e0, e1⟩ := idx_facts t
  refine ⟨t, flush0_4 t, ?_⟩
  rw [mem_blk]
  intro a
  match a with
  | ⟨0, _⟩ => show win0_4.index t 0 * 4096 ≤ (i 0).val ∧ (i 0).val < win0_4.index t 0 * 4096 + 4096; rw [e0, ht]; omega
  | ⟨1, _⟩ => show win0_4.index t 1 * 128 ≤ (i 1).val ∧ (i 1).val < win0_4.index t 1 * 128 + 128; rw [e1]; omega

/-- THE ARRAY after the region: the whole-array function of the arrays the region found. -/
theorem final (c : Dev nD) : (dats m 0 c).arrAt 4 cfg0.N = G (V m c main_v0) (V m c main_arg3) (V m c main_arg1) (V m c main_arg2) :=
  (dats m 0 c).arrAt_eq_of_cover 4 _ (fun t _ => flushed_eq m c t) cover

/-- The array the region's first window reads is the input reshaped to rows of 128. -/
theorem V_main_v0 (c : Dev nD) : (V m c main_v0 : S352256x128.Idx → Elt Ideal .f32)
    = shapeCast S352256x128 (m ((c : Thread nD τ).loc main_arg0)) shapeCasts_S4096x11008_S352256x128 := by
  show StableHlo.after hostOps0 (fun b => m (c, b)) (Proc.devRef .tc main_v0) = _
  after_results
  rfl

/-- The program's result: the region's output array reshaped back. -/
theorem tail_eq (c : Dev nD) : Pipeline.afterTail₀ cfgs (dats m) 0 (V0 m) [hostOps1] c main_v2
    = shapeCast S4096x11008 ((dats m 0 c).arrAt 4 cfg0.N) shapeCasts_S352256x128_S4096x11008 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 4 cfg0.N :=
    Pipeline.withArrays_arr spec0 launch0.win.arr_inj c (V0 m c) (fun w => (dats m 0 c).arrAt w cfg0.N) 4
  rw [e]
  rfl

/-- THE RUN, read: the result holds the whole-array function of the reshaped input, the perturbation, alpha and shift,
    reshaped back; the arguments end unchanged. -/
theorem run : θ_run defs (onTc (τ := τ) (main (F := Ideal))) ⟨m, fun _ => 0, ρ⟩ fun r => ∀ c : Dev nD,
      r.2.mem ((c.tc : Thread nD τ).loc main_v2)
        = shapeCast S4096x11008 (G (shapeCast S352256x128 (m ((c : Thread nD τ).loc main_arg0)) shapeCasts_S4096x11008_S352256x128)
            (m ((c : Thread nD τ).loc main_arg3)) (m ((c : Thread nD τ).loc main_arg1)) (m ((c : Thread nD τ).loc main_arg2)))
            shapeCasts_S352256x128_S4096x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans
        ((tail_eq m c).trans (by rw [final m c, V_main_v0 m c, V_main_arg1 m c, V_main_arg2 m c, V_main_arg3 m c])),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Arr
end
-- ==== Proof.RefStages.lean ====
/-
  The reference program read at one element. Its last stage before the final reshape, at row r and column q of the
  [352256, 128] arrangement, is the division arrangement of the fake-quantization formula applied to: the reshaped
  input's entry (r, q), the perturbation's entry (r, q), alpha's and shift's entries of row r, and the minimum of the
  reshaped input over row r. The generated per-operation lemmas are chained stage by stage; the row minimum, which they
  do not read, is the fold of min over the row's 128 entries; a [352256, 1] column broadcast along the columns reads its
  row's entry.
-/
import proofs.«172777_j15796889714962_2_alg».proof.Proof.Gen.ReferenceIdeal.Read
import proofs.«172777_j15796889714962_2_alg».proof.Proof.QuantLaw
import proofs.«172777_j15796889714962_2_alg».proof.Proof.LibMinLayout
import Idealize.ShloMosaic.Lib.ValueIdx

noncomputable section
namespace Cert.ReferenceIdeal.RefValue
open Idealize.ShloMosaic Idealize.ShloMosaic.ValueIdx Cert.ReferenceIdeal Cert.ReferenceIdeal.Gen Cert.ReferenceIdeal.Read Cert.Lib.MinLayout

variable (x0 : (⟨S4096x11008, .f32⟩ : BufTy).Contents (Elt Ideal)) (x1 x2 : (⟨S352256x1, .f32⟩ : BufTy).Contents (Elt Ideal))
  (x3 : (⟨S352256x128, .f32⟩ : BufTy).Contents (Elt Ideal))

/-- A column broadcast to 128 columns reads, at (r, q), the column's row r: the four broadcasts of the program. -/
theorem col_v12 (r : Fin 352256) (q : Fin 128) : idx_main_v12 (ix2 r q) = ix2 r (0 : Fin 1) := by
  funext a; match a with | ⟨0, _⟩ => rfl | ⟨1, _⟩ => rfl
theorem col_v17 (r : Fin 352256) (q : Fin 128) : idx_main_v17 (ix2 r q) = ix2 r (0 : Fin 1) := by
  funext a; match a with | ⟨0, _⟩ => rfl | ⟨1, _⟩ => rfl
theorem col_v20 (r : Fin 352256) (q : Fin 128) : idx_main_v20 (ix2 r q) = ix2 r (0 : Fin 1) := by
  funext a; match a with | ⟨0, _⟩ => rfl | ⟨1, _⟩ => rfl
theorem col_v22 (r : Fin 352256) (q : Fin 128) : idx_main_v22 (ix2 r q) = ix2 r (0 : Fin 1) := by
  funext a; match a with | ⟨0, _⟩ => rfl | ⟨1, _⟩ => rfl
/-- The row minima, broadcast into a column, read at row r the minimum of row r. -/
theorem row_v2 (r : Fin 352256) : idx_main_v2 (ix2 r (0 : Fin 1)) = ix1 r := by
  funext a; match a with | ⟨0, _⟩ => rfl

/-- Reducing the columns away leaves the rows. -/
theorem reduces_rows : S352256x128.Reduces [1] S352256 := by decide

/-- The minimum over row r of the reshaped input: the fold of min, from +infinity's word, over the row's entries. -/
theorem v1_at (r : Fin 352256) :
    val_main_v1 (F := Ideal) x0 (ix1 r)
      = (Finset.univ : Finset (Fin 128)).fold min (Ideal.ofBits .f32 0x7F800000#32) fun k => val_main_v0 (F := Ideal) x0 (ix2 r k) := by
  unfold val_main_v1
  exact hostReduce_min_row (val_main_v0 (F := Ideal) x0) (val_main_cst (F := Ideal)) reducesTo_S352256x128_S352256_d1 reduces_rows h_S_ r

/-- The broadcasts, read at (r, q) or (r, 0). -/
theorem v2_at (r : Fin 352256) : val_main_v2 (F := Ideal) x0 (ix2 r 0) = val_main_v1 (F := Ideal) x0 (ix1 r) :=
  (val_main_v2_apply x0 _).trans (congrArg _ (row_v2 r))
theorem v12_at (r : Fin 352256) (q : Fin 128) : val_main_v12 (F := Ideal) x1 (ix2 r q) = val_main_v5 (F := Ideal) x1 (ix2 r 0) :=
  (val_main_v12_apply x1 _).trans (congrArg _ (col_v12 r q))
theorem v22_at (r : Fin 352256) (q : Fin 128) : val_main_v22 (F := Ideal) x1 (ix2 r q) = val_main_v5 (F := Ideal) x1 (ix2 r 0) :=
  (val_main_v22_apply x1 _).trans (congrArg _ (col_v22 r q))
theorem v17_at (r : Fin 352256) (q : Fin 128) : val_main_v17 (F := Ideal) x0 x1 x2 (ix2 r q) = val_main_v10 (F := Ideal) x0 x1 x2 (ix2 r 0) :=
  (val_main_v17_apply x0 x1 x2 _).trans (congrArg _ (col_v17 r q))
theorem v20_at (r : Fin 352256) (q : Fin 128) : val_main_v20 (F := Ideal) x0 x1 x2 (ix2 r q) = val_main_v10 (F := Ideal) x0 x1 x2 (ix2 r 0) :=
  (val_main_v20_apply x0 x1 x2 _).trans (congrArg _ (col_v20 r q))

/-- The scale of row r. -/
theorem v5_at (r : Fin 352256) : val_main_v5 (F := Ideal) x1 (ix2 r 0) = Cert.Quant.scale (x1 (ix2 r 0)) := by
  rw [val_main_v5_apply, val_main_call0_v4_apply, val_main_call0_v3_apply, val_main_cst_2_apply, val_main_call0_v2_apply,
    val_main_call0_v1_apply, val_main_call0_v0_apply, val_main_cst_1_apply, val_main_v4_apply, val_main_v3_apply, val_main_cst_0_apply]
  rfl

/-- The rounded zero point of row r. -/
theorem v10_at (r : Fin 352256) : val_main_v10 (F := Ideal) x0 x1 x2 (ix2 r 0)
    = Cert.Quant.zeroPointDiv ((Finset.univ : Finset (Fin 128)).fold min (Ideal.ofBits .f32 0x7F800000#32) fun k => val_main_v0 (F := Ideal) x0 (ix2 r k))
        (x2 (ix2 r 0)) (Cert.Quant.scale (x1 (ix2 r 0))) := by
  rw [val_main_v10_apply, val_main_v9_apply, val_main_call1_v4_apply, val_main_call1_v3_apply, val_main_cst_4_apply,
    val_main_call1_v2_apply, val_main_call1_v1_apply, val_main_call1_v0_apply, val_main_cst_3_apply, val_main_v8_apply,
    val_main_v7_apply, val_main_v6_apply, v2_at, v1_at, v5_at]
  rfl

/-- One element of the reference's last stage before the final reshape. -/
theorem v23_at (r : Fin 352256) (q : Fin 128) : val_main_v23 (F := Ideal) x0 x1 x2 x3 (ix2 r q)
    = Cert.Quant.outDiv (val_main_v0 (F := Ideal) x0 (ix2 r q)) (x3 (ix2 r q)) (x1 (ix2 r 0)) (x2 (ix2 r 0))
        ((Finset.univ : Finset (Fin 128)).fold min (Ideal.ofBits .f32 0x7F800000#32) fun k => val_main_v0 (F := Ideal) x0 (ix2 r k)) := by
  rw [val_main_v23_apply, val_main_v21_apply, val_main_v19_apply, val_main_call4_v4_apply, val_main_call4_v3_apply, val_main_cst_6_apply,
    val_main_call4_v2_apply, val_main_call4_v1_apply, val_main_call4_v0_apply, val_main_cst_5_apply, val_main_v18_apply, val_main_v16_apply,
    val_main_v15_apply, val_main_v14_apply, val_main_v13_apply, val_main_v11_apply, v12_at, v17_at, v20_at, v22_at, v10_at, v5_at]
  rfl

end Cert.ReferenceIdeal.RefValue
end
-- ==== Proof.FiniteInputs.lean ====
/-
  What the precondition gives: every entry of the input and of the perturbation is a real number. The precondition is the
  conjunction, over the four arguments, of "all entries have absolute value below +infinity"; each "all" is a reduction
  by "and" of the entrywise comparisons, and a conjunction or such a reduction that is 1 has every member 1. An extended
  real whose absolute value max(x, -x) is below +infinity is neither infinity.
-/
import proofs.«172777_j15796889714962_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

variable [Cert.Pre_finite_inputs.Facts]

/-- The scalar shape has one index. -/
instance : Subsingleton S_.Idx := ⟨fun _ _ => funext fun d => d.elim0⟩

/-- The word of +infinity denotes the top element. -/
theorem ofBits_inf : Ideal.ofBits .f32 0x7F800000#32 = ⊤ := by
  simp [Ideal.ofBits, Ideal.ieee]

/-- An extended real whose absolute value compares below +infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exfalso; revert h; simp [Ideal.cmp]
  | top => exfalso; revert h; simp [Ideal.cmp]
  | coe r => exact ⟨r, rfl⟩

/-- Under the precondition every entry of the first argument and every entry of the fourth is a real number. -/
theorem real_entries (a0 : FVec Ideal S4096x11008 .f32) (a1 a2 : FVec Ideal S352256x1 .f32) (a3 : FVec Ideal S352256x128 .f32)
    (h : fn (F := Ideal) a0 a1 a2 a3 = fun _ => 1#1) :
    (∀ i, ∃ r : ℝ, a0 i = (r : EReal)) ∧ (∀ i, ∃ r : ℝ, a3 i = (r : EReal)) := by
  have h0 := congrFun h ix0
  dsimp only [fn, fn_part1] at h0
  obtain ⟨h13, h17⟩ := IntOp.andi_eq_one.1 h0
  obtain ⟨h8, -⟩ := IntOp.andi_eq_one.1 h13
  obtain ⟨h3, -⟩ := IntOp.andi_eq_one.1 h8
  exact ⟨fun i => real_of_abs_lt_inf _ (Host.reduce_andi_all _ _ _ _ _ h3 i),
    fun i => real_of_abs_lt_inf _ (Host.reduce_andi_all _ _ _ _ _ h17 i)⟩

end Cert.FiniteInputs

end
-- ==== Proof.Bridge.lean ====
/-
  The two programs' last stages before the final reshape are one array: at every (r, q) the kernel's whole-array
  function gives the reciprocal arrangement of the formula, the reference's stage the division arrangement, of the same
  five quantities, and the two arrangements agree whenever the input's entry and the perturbation's entry are real
  numbers — which the precondition says of every entry.
-/
import proofs.«172777_j15796889714962_2_alg».proof.Proof.KernelArray
import proofs.«172777_j15796889714962_2_alg».proof.Proof.RefStages
import proofs.«172777_j15796889714962_2_alg».proof.Proof.FiniteInputs

noncomputable section

namespace Cert.Bridge

open Idealize.ShloMosaic Idealize.ShloMosaic.ValueIdx

/-- The kernel's whole-array function of the reshaped input is the reference's stage before its final reshape. -/
theorem stage_eq (x0 : (⟨Cert.ReferenceIdeal.S4096x11008, .f32⟩ : BufTy).Contents (Elt Ideal))
    (x1 x2 : (⟨Cert.ReferenceIdeal.S352256x1, .f32⟩ : BufTy).Contents (Elt Ideal))
    (x3 : (⟨Cert.ReferenceIdeal.S352256x128, .f32⟩ : BufTy).Contents (Elt Ideal))
    (hx : ∀ i, ∃ r : ℝ, x0 i = (r : EReal)) (hp : ∀ i, ∃ r : ℝ, x3 i = (r : EReal)) :
    Cert.KernelIdeal.Arr.G (Cert.ReferenceIdeal.Read.val_main_v0 (F := Ideal) x0) x3 x1 x2
      = Cert.ReferenceIdeal.Read.val_main_v23 (F := Ideal) x0 x1 x2 x3 := by
  funext i
  obtain ⟨r, q, rfl⟩ : ∃ (r : Fin 352256) (q : Fin 128), i = ix2 r q := ⟨i 0, i 1, eq_ix2 i⟩
  rw [Cert.ReferenceIdeal.RefValue.v23_at, Cert.KernelIdeal.Arr.G_apply]
  obtain ⟨xr, hxr⟩ := hx (Cert.ReferenceIdeal.Read.idx_main_v0 (ix2 r q))
  obtain ⟨pr, hpr⟩ := hp (ix2 r q)
  have hX : Cert.ReferenceIdeal.Read.val_main_v0 (F := Ideal) x0 (ix2 r q) = (xr : EReal) :=
    (Cert.ReferenceIdeal.Read.val_main_v0_apply x0 _).trans hxr
  rw [hX, hpr]
  exact Cert.Quant.outMul_eq_outDiv _ _ _

end Cert.Bridge

end
-- ==== Proof.lean ====
/-
  Per-group fake affine quantization, kernel against reference, over the extended reals.

  Both programs reshape x to 352256 rows of 128, and per row take the minimum m, the scale s = clip(alpha / 255) and the
  rounded zero point c = round(clip(-(m + shift) / s)); per element, with w = (x + perturbation) / s, the reference
  returns (clip(w + (round(w) - w) + c, 0, 255) - c) * s and the kernel clip(round(w), 0 - c, 255 - c) * s, having
  multiplied by 1/s where the reference divides. They reshape back. The scale is a positive real whatever alpha is, so
  dividing by it is multiplying by its reciprocal; the zero point is a real; and for finite x and perturbation, which
  the precondition gives, w is a real, w + (round(w) - w) = round(w), and shifting a clip's bounds by c is subtracting c
  after clipping the shifted value. Hence equal results, element by element.

  The three frames are the generated ones (the reference's is its generated run with the result dropped); the kernel's
  idealization rewrote nothing, so `preserves` is trivial; `algebraic` joins the kernel's run, read as one whole-array
  function of the arguments, to the reference's generated run, stage by stage.
-/
import proofs.«172777_j15796889714962_2_alg».proof.Defs
import proofs.«172777_j15796889714962_2_alg».proof.Proof.Gen.Kernel
import proofs.«172777_j15796889714962_2_alg».proof.Proof.Gen.Kernel.Skeleton
import proofs.«172777_j15796889714962_2_alg».proof.Proof.Gen.Kernel.Launch
import proofs.«172777_j15796889714962_2_alg».proof.Proof.Gen.Kernel.Points
import proofs.«172777_j15796889714962_2_alg».proof.Proof.Gen.Kernel.Frame
import proofs.«172777_j15796889714962_2_alg».proof.Proof.Gen.KernelIdeal
import proofs.«172777_j15796889714962_2_alg».proof.Proof.Gen.KernelIdeal.Skeleton
import proofs.«172777_j15796889714962_2_alg».proof.Proof.Gen.KernelIdeal.Launch
import proofs.«172777_j15796889714962_2_alg».proof.Proof.Gen.KernelIdeal.Points
import proofs.«172777_j15796889714962_2_alg».proof.Proof.Gen.KernelIdeal.Frame
import proofs.«172777_j15796889714962_2_alg».proof.Proof.Gen.ReferenceIdeal
import proofs.«172777_j15796889714962_2_alg».proof.Proof.Gen.Pre_finite_inputs
import proofs.«172777_j15796889714962_2_alg».proof.Proof.Gen.ReferenceIdeal.Run
import proofs.«172777_j15796889714962_2_alg».proof.Proof.Gen.ReferenceIdeal.Read
import proofs.«172777_j15796889714962_2_alg».proof.Proof.Bridge
import Idealize.ShloMosaic.Adequacy
import Idealize.ShloMosaic.Init

noncomputable section

namespace Cert.Proof

open Idealize.ShloMosaic Idealize.SL.Sem Cert.Kernel

/-- The kernel as printed runs and keeps its arguments. -/
theorem frame_kernel [Cert.Pre_finite_inputs.Facts] : Cert.frame_Kernel (hKernel := Cert.Kernel.Gen.facts) :=
  fun m ρ _ => Cert.Kernel.Gen.frame m ρ

/-- The idealized kernel runs and keeps its arguments. -/
theorem frame_kernelIdeal [Cert.Pre_finite_inputs.Facts] : Cert.frame_KernelIdeal (hKernelIdeal := Cert.KernelIdeal.Gen.facts) :=
  fun m ρ _ => Cert.KernelIdeal.Gen.frame m ρ

/-- The idealized reference runs and keeps its arguments: its run, the result dropped. -/
theorem frame_referenceIdeal [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.Value.run (F := Ideal) m ρ)

/-- From memories agreeing on the arguments both idealized programs end with one result: the kernel's whole-array
    function of the reshaped input, the perturbation, alpha and shift, reshaped back; the reference's last stage is
    that function wherever the input and the perturbation are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hp⟩ := Cert.FiniteInputs.real_entries _ _ _ _ (hpre c)
  rw [Cert.ReferenceIdeal.Read.val_main_v24_eq, (hagree c).1, (hagree c).2.1, (hagree c).2.2.1, (hagree c).2.2.2]
  exact congrArg (fun v => shapeCast Cert.KernelIdeal.S4096x11008 v Cert.KernelIdeal.Gen.shapeCasts_S352256x128_S4096x11008)
    (Cert.Bridge.stage_eq _ _ _ _ hx hp).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
